-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x128 : Shape := ⟨4, ![4, 16, 4096, 128]⟩
abbrev S128x128 : Shape := ⟨2, ![128, 128]⟩
abbrev S128 : Shape := ⟨1, ![128]⟩
abbrev S_ : Shape := ⟨0, ![]⟩

class Facts : Prop where
  bcast_S_S4x16x4096x128 : S_.BroadcastsInDim S4x16x4096x128 (![] : Fin 0 → Fin S4x16x4096x128.rank)
  reducesTo_S4x16x4096x128_S_d0_1_2_3 : S4x16x4096x128.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S4x16x4096x128 .f32) (main_arg1 : FVec F S128x128 .f32) (main_arg2 : FVec F S128 .f32) : IVec S_ 1 :=
  let main_v0 : FVec F S4x16x4096x128 .f32 := Host.absf main_arg0
  let main_cst : FVec F S_ .f32 := constant S_ .f32 0x7F800000#32
  let main_v1 : FVec F S4x16x4096x128 .f32 := broadcastInDim S4x16x4096x128 ![] bcast_S_S4x16x4096x128 main_cst
  let main_v2 : IVec S4x16x4096x128 1 := cmpf .olt main_v0 main_v1
  let main_c : IVec S_ 1 := constantI S_ 1 1#1
  let main_v3 : IVec S_ 1 := (fun x v => Host.reduce IntOp.andi x v reducesTo_S4x16x4096x128_S_d0_1_2_3 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S4x16x4096x128 : Shape := ⟨4, ![4, 16, 4096, 128]⟩
abbrev S128x128 : Shape := ⟨2, ![128, 128]⟩
abbrev S128 : Shape := ⟨1, ![128]⟩
abbrev S262144x128 : Shape := ⟨2, ![262144, 128]⟩
abbrev S1x128 : Shape := ⟨2, ![1, 128]⟩
abbrev S8192x128 : Shape := ⟨2, ![8192, 128]⟩
abbrev S8192 : Shape := ⟨1, ![8192]⟩
abbrev S8192x1 : Shape := ⟨2, ![8192, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x16x4096x128, .f32⟩
  | .hbm, ⟨1, _⟩ => ⟨S128x128, .f32⟩
  | .hbm, ⟨2, _⟩ => ⟨S128, .f32⟩
  | .hbm, ⟨3, _⟩ => ⟨S262144x128, .f32⟩
  | .hbm, ⟨4, _⟩ => ⟨S128x128, .f32⟩
  | .hbm, ⟨5, _⟩ => ⟨S1x128, .f32⟩
  | .hbm, ⟨6, _⟩ => ⟨S262144x128, .f32⟩
  | .hbm, ⟨7, _⟩ => ⟨S4x16x4096x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | _, _ => ⟨S4x16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x16x4096x128_S262144x128 : S4x16x4096x128.ShapeCasts S262144x128
  transposes_S128x128_S128x128_1_0 : S128x128.Transposes [1, 0] S128x128
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  reduces_S8192x128_S8192 : S8192x128.Reduces [1] S8192
  shapeCasts_S8192_S8192x1 : S8192.ShapeCasts S8192x1
  broadcasts_S8192x1_S8192x128 : S8192x1.Broadcasts S8192x128
  shapeCasts_S262144x128_S4x16x4096x128 : S262144x128.ShapeCasts S4x16x4096x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S262144x128.size a
  hwx0_3 : ∀ i : grid0.Coords, EltTy.bits .f32 = 32 ∨ (Rect.block (s := S262144x128) S8192x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x4096x128 : Shape := ⟨4, ![4, 16, 4096, 128]⟩
abbrev S128x128 : Shape := ⟨2, ![128, 128]⟩
abbrev S128 : Shape := ⟨1, ![128]⟩
abbrev S1x1x1x128 : Shape := ⟨4, ![1, 1, 1, 128]⟩
abbrev S_ : Shape := ⟨0, ![]⟩
abbrev S4x16x4096 : Shape := ⟨3, ![4, 16, 4096]⟩
abbrev S4x16x4096x1 : Shape := ⟨4, ![4, 16, 4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x16x4096x128, .f32⟩
  | .hbm, ⟨1, _⟩ => ⟨S128x128, .f32⟩
  | .hbm, ⟨2, _⟩ => ⟨S128, .f32⟩
  | .hbm, ⟨3, _⟩ => ⟨S4x16x4096x128, .f32⟩
  | .hbm, ⟨4, _⟩ => ⟨S1x1x1x128, .f32⟩
  | .hbm, ⟨5, _⟩ => ⟨S4x16x4096x128, .f32⟩
  | .hbm, ⟨6, _⟩ => ⟨S4x16x4096x128, .f32⟩
  | .hbm, ⟨7, _⟩ => ⟨S_, .f32⟩
  | .hbm, ⟨8, _⟩ => ⟨S4x16x4096, .f32⟩
  | .hbm, ⟨9, _⟩ => ⟨S_, .f32⟩
  | .hbm, ⟨10, _⟩ => ⟨S4x16x4096, .f32⟩
  | .hbm, ⟨11, _⟩ => ⟨S4x16x4096, .f32⟩
  | .hbm, ⟨12, _⟩ => ⟨S4x16x4096x1, .f32⟩
  | .hbm, ⟨13, _⟩ => ⟨S4x16x4096x128, .f32⟩
  | .hbm, ⟨14, _⟩ => ⟨S4x16x4096x128, .f32⟩
  | .hbm, ⟨15, _⟩ => ⟨S4x16x4096x128, .f32⟩
  | .hbm, ⟨16, _⟩ => ⟨S_, .f32⟩
  | .hbm, ⟨17, _⟩ => ⟨S4x16x4096, .f32⟩
  | .hbm, ⟨18, _⟩ => ⟨S4x16x4096x1, .f32⟩
  | .hbm, ⟨19, _⟩ => ⟨S4x16x4096x128, .f32⟩
  | .hbm, ⟨20, _⟩ => ⟨S4x16x4096x128, .f32⟩
  | .hbm, ⟨21, _⟩ => ⟨S4x16x4096x128, .f32⟩
  | .hbm, ⟨22, _⟩ => ⟨S_, .f32⟩
  | .hbm, ⟨23, _⟩ => ⟨S4x16x4096, .f32⟩
  | .hbm, ⟨24, _⟩ => ⟨S_, .f32⟩
  | .hbm, ⟨25, _⟩ => ⟨S4x16x4096, .f32⟩
  | .hbm, ⟨26, _⟩ => ⟨S4x16x4096, .f32⟩
  | .hbm, ⟨27, _⟩ => ⟨S4x16x4096x1, .f32⟩
  | .hbm, ⟨28, _⟩ => ⟨S4x16x4096x128, .f32⟩
  | .hbm, ⟨29, _⟩ => ⟨S4x16x4096x128, .f32⟩
  | .hbm, ⟨30, _⟩ => ⟨S4x16x4096x128, .f32⟩
  | .hbm, ⟨31, _⟩ => ⟨S_, .f32⟩
  | .hbm, ⟨32, _⟩ => ⟨S4x16x4096, .f32⟩
  | .hbm, ⟨33, _⟩ => ⟨S4x16x4096x1, .f32⟩
  | .hbm, ⟨34, _⟩ => ⟨S4x16x4096x128, .f32⟩
  | .hbm, ⟨35, _⟩ => ⟨S4x16x4096x128, .f32⟩
  | .hbm, ⟨36, _⟩ => ⟨S4x16x4096x128, .f32⟩
  | .hbm, ⟨37, _⟩ => ⟨S_, .f32⟩
  | .hbm, ⟨38, _⟩ => ⟨S4x16x4096x128, .f32⟩
  | .hbm, ⟨39, _⟩ => ⟨S4x16x4096x128, .f32⟩
  | _, _ => ⟨S4x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S4x16x4096x128_0_1_2_3 : S1x1x1x128.BroadcastsInDim S4x16x4096x128 (![0, 1, 2, 3] : Fin 4 → Fin S4x16x4096x128.rank)
  reducesTo_S4x16x4096x128_S4x16x4096_d3 : S4x16x4096x128.ReducesTo [3] S4x16x4096
  h_S_ : 0 < S_.numel
  bcast_S_S4x16x4096 : S_.BroadcastsInDim S4x16x4096 (![] : Fin 0 → Fin S4x16x4096.rank)
  bcast_S4x16x4096_S4x16x4096x1_0_1_2 : S4x16x4096.BroadcastsInDim S4x16x4096x1 (![0, 1, 2] : Fin 3 → Fin S4x16x4096x1.rank)
  bcast_S4x16x4096x1_S4x16x4096x128_0_1_2_3 : S4x16x4096x1.BroadcastsInDim S4x16x4096x128 (![0, 1, 2, 3] : Fin 4 → Fin S4x16x4096x128.rank)
  bcast_S_S4x16x4096x128 : S_.BroadcastsInDim S4x16x4096x128 (![] : Fin 0 → Fin S4x16x4096x128.rank)
  dot_S4x16x4096x128_S128x128_S4x16x4096x128_3_1_012_0_n_n_wf : DotDims.WF S4x16x4096x128 S128x128 S4x16x4096x128 [3] [1] [0, 1, 2] [0] [] []

variable [Facts₀]

def dot_S4x16x4096x128_S128x128_S4x16x4096x128_3_1_012_0_n_n : DotDims S4x16x4096x128 S128x128 S4x16x4096x128 where
  lhsContracting := [3]
  rhsContracting := [1]
  lhsNonContracting := [0, 1, 2]
  rhsNonContracting := [0]
  lhsBatch := []
  rhsBatch := []
  wf := dot_S4x16x4096x128_S128x128_S4x16x4096x128_3_1_012_0_n_n_wf

class Facts : Prop extends Facts₀ where

variable [Facts]
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.DualSoftmax.lean ====
/-
  Two softmaxes of one row from a single exponential.

  For a row `v` of extended reals write `rowMax v` for its largest entry (taken from −∞). The usual softmax of `v`
  is `exp (v j − c) / Σ_k exp (v k − c)` at the shift `c = rowMax v` (`shifted`). The softmax of the NEGATED row can
  be had without a second maximum and a second exponential: `1 / exp (v j − c) = exp (c − v j)`, so the reciprocals of
  the same exponentials, normalised by their own sum, are `exp (−v j) / Σ_k exp (−v k)` again — the common factor
  `exp c` cancels (`shiftedInv`). `fused` is the half-sum of the two softmaxes computed the first way, `twoPass` the
  second way, each softmax with its own maximum. On a row of REAL numbers the two agree (`fused_eq_twoPass`): every
  exponential is then a positive real, every sum a positive real, and a softmax does not depend on its shift. (At an
  infinite entry the cancellation fails, which is why the statement is about real rows.)
-/
import Idealize.ShloMosaic.PureOps.Ideal

open scoped BigOperators

noncomputable section

namespace Cert.DualSoftmax

open Idealize.ShloMosaic

/-- The largest entry of a row, taken from −∞. -/
def rowMax {n : ℕ} (v : Fin n → EReal) : EReal := (Finset.univ : Finset (Fin n)).fold max ⊥ v

/-- The softmax of the row `v` at lane `j`, computed with the shift `c`: `exp (v j − c) / Σ_k exp (v k − c)`. -/
def shifted {n : ℕ} (v : Fin n → EReal) (c : EReal) (j : Fin n) : EReal :=
  Ideal.div (Ideal.exp (v j - c)) (∑ k : Fin n, Ideal.exp (v k - c))

/-- The reciprocals `one / exp (v j − c)` normalised by their own sum. -/
def shiftedInv {n : ℕ} (one : EReal) (v : Fin n → EReal) (c : EReal) (j : Fin n) : EReal :=
  Ideal.div (Ideal.div one (Ideal.exp (v j - c))) (∑ k : Fin n, Ideal.div one (Ideal.exp (v k - c)))

/-- Half the sum of the softmax of `v` and of the normalised reciprocals of the same exponentials. -/
def fused {n : ℕ} (one half : EReal) (v : Fin n → EReal) (j : Fin n) : EReal :=
  (shifted v (rowMax v) j + shiftedInv one v (rowMax v) j) * half

/-- Half the sum of the softmax of `v` and the softmax of `−v`, each with its own maximum. -/
def twoPass {n : ℕ} (half : EReal) (v : Fin n → EReal) (j : Fin n) : EReal :=
  (shifted v (rowMax v) j + shifted (fun k => -v k) (rowMax fun k => -v k) j) * half

end Cert.DualSoftmax

end
-- ==== Proof.KernelRow.lean ====
/-
  One block of the kernel, row by row.

  The body loads a block `x` of 8192 rows and 128 lanes, the transposed weight `wt` (128 × 128) and the bias as one row,
  forms `v = x · wt + bias` and stores, for every row, the half-sum of the softmax of that row of `v` and of the softmax
  of its negation, the second obtained from the reciprocals of the first one's exponentials. Read at the entry
  `(p, q)` the stored value depends on row `p` of `v` alone: it is `DualSoftmax.fused` of that row at lane `q`
  (`payload_apply`), and lane `j` of that row is `Σ_k x(p,k) · wt(k,j) + bias(0,j)` (`lin_apply`).
-/
import proofs.«121468_j52063593562939_2_alg».proof.Proof.Gen.KernelIdeal.Skeleton
import proofs.«121468_j52063593562939_2_alg».proof.Proof.LibColumns
import proofs.«121468_j52063593562939_2_alg».proof.Proof.DualSoftmax
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelRow

open Idealize.ShloMosaic Idealize.ShloMosaic.ValueIdx Cert.KernelIdeal Cert.KernelIdeal.Gen Cert.DualSoftmax Cert.Lib.Columns

/-- The f32 pattern of −∞ denotes the bottom of the extended reals. -/
theorem negInf : Ideal.ofBits .f32 0xFF800000#32 = ⊥ := by simp [Ideal.ofBits, Ideal.ieee]

/-! ## The stages of the body after the linear map, as functions of `v` -/

/-- Every row's maximum (from −∞), written back along the row. -/
def rowMaxB (V : FVec Ideal S8192x128 .f32) : FVec Ideal S8192x128 .f32 :=
  broadcastTo S8192x128 (shapeCast S8192x1 (multiReduction .maximumf [1] S8192 V 0xFF800000#32 reduces_S8192x128_S8192 (.inl rfl) rfl)
    shapeCasts_S8192_S8192x1) broadcasts_S8192x1_S8192x128

/-- `exp (v − rowmax)`. -/
def expo (V : FVec Ideal S8192x128 .f32) : FVec Ideal S8192x128 .f32 := exp (subf V (rowMaxB V))

/-- Every row's sum, written back along the row. -/
def laneSumB (E : FVec Ideal S8192x128 .f32) : FVec Ideal S8192x128 .f32 :=
  broadcastTo S8192x128 (shapeCast S8192x1 (multiReduction .add [1] S8192 E 0x00000000#32 reduces_S8192x128_S8192 (.inl rfl) rfl)
    shapeCasts_S8192_S8192x1) broadcasts_S8192x1_S8192x128

/-- `1 / exp (v − rowmax)`. -/
def recip (V : FVec Ideal S8192x128 .f32) : FVec Ideal S8192x128 .f32 :=
  divf (broadcast S8192x128 (Scalar.ofBits .f32 0x3F800000#32)) (expo V)

/-- The stored block as a function of `v`. -/
def tail (V : FVec Ideal S8192x128 .f32) : FVec Ideal S8192x128 .f32 :=
  mulf (addf (divf (expo V) (laneSumB (expo V))) (divf (recip V) (laneSumB (recip V))))
    (broadcast S8192x128 (Scalar.ofBits .f32 0x3F000000#32))

/-- `v = x · wt + bias`, the bias row repeated down the rows. -/
def lin (x0 : FVec Ideal S8192x128 .f32) (x1 : FVec Ideal S128x128 .f32) (x2 : FVec Ideal S1x128 .f32) : FVec Ideal S8192x128 .f32 :=
  addf (matmul dot_S8192x128_S128x128_S8192x128_1_0_0_1_n_n none (shapeCast S8192x128 x0 shapeCasts_S8192x128_S8192x128)
      (shapeCast S128x128 x1 shapeCasts_S128x128_S128x128) (constant S8192x128 .f32 0x00000000#32))
    (broadcastTo S8192x128 (shapeCast S1x128 x2 shapeCasts_S1x128_S1x128) broadcasts_S1x128_S8192x128)

/-- The body's stored value is these stages composed. -/
theorem payload_eq (x0 : FVec Ideal S8192x128 .f32) (x1 : FVec Ideal S128x128 .f32) (x2 : FVec Ideal S1x128 .f32) :
    k0_pay1 (F := Ideal) x0 x1 x2 = tail (lin x0 x1 x2) := rfl

/-! ## Each stage at an entry -/

theorem rowMaxB_apply (V : FVec Ideal S8192x128 .f32) (p : Fin 8192) (k : Fin 128) :
    rowMaxB V (ix2 p k) = rowMax (fun j : Fin 128 => V (ix2 p j)) := by
  unfold rowMaxB
  refine (broadcastTo_a1_ab_apply _ _ p k).trans ?_
  refine (shapeCast_a_a1_apply _ _ p (0 : Fin 1)).trans ?_
  refine (Ideal.multiReduction_maximumf_single V 0xFF800000#32 reduces_S8192x128_S8192 (.inl rfl) rfl (ix1 p)).trans ?_
  show (Finset.univ : Finset (Fin 128)).fold max (Ideal.ofBits .f32 0xFF800000#32) (V ∘ reduces_S8192x128_S8192.lift (ix1 p)) = _
  rw [negInf]
  unfold rowMax
  exact congrArg (fun f => Finset.fold max ⊥ f Finset.univ) (funext fun j => congrArg V (funext fun c => Fin.ext (by
    match c with | ⟨0, _⟩ => rfl | ⟨1, _⟩ => rfl)))

theorem laneSumB_apply (E : FVec Ideal S8192x128 .f32) (p : Fin 8192) (q : Fin 128) :
    laneSumB E (ix2 p q) = ∑ k : Fin 128, E (ix2 p k) := by
  unfold laneSumB
  refine (broadcastTo_a1_ab_apply _ _ p q).trans ?_
  refine (shapeCast_a_a1_apply _ _ p (0 : Fin 1)).trans ?_
  exact multiReduction_add_ab_a_apply E 0x00000000#32 reduces_S8192x128_S8192 (.inl rfl) rfl p

theorem expo_apply (V : FVec Ideal S8192x128 .f32) (p : Fin 8192) (k : Fin 128) :
    expo V (ix2 p k) = Ideal.exp (V (ix2 p k) - rowMax (fun j : Fin 128 => V (ix2 p j))) := by
  show Ideal.exp (V (ix2 p k) - rowMaxB V (ix2 p k)) = _
  rw [rowMaxB_apply]

theorem recip_apply (V : FVec Ideal S8192x128 .f32) (p : Fin 8192) (k : Fin 128) :
    recip V (ix2 p k)
      = Ideal.div (Ideal.ofBits .f32 0x3F800000#32) (Ideal.exp (V (ix2 p k) - rowMax (fun j : Fin 128 => V (ix2 p j)))) := by
  show Ideal.div (Ideal.ofBits .f32 0x3F800000#32) (expo V (ix2 p k)) = _
  rw [expo_apply]

/-- The stored block at `(p, q)` is the fused pair of softmaxes of row `p` of `v`, at lane `q`. -/
theorem tail_apply (V : FVec Ideal S8192x128 .f32) (p : Fin 8192) (q : Fin 128) :
    tail V (ix2 p q)
      = fused (Ideal.ofBits .f32 0x3F800000#32) (Ideal.ofBits .f32 0x3F000000#32) (fun j : Fin 128 => V (ix2 p j)) q := by
  show (Ideal.div (expo V (ix2 p q)) (laneSumB (expo V) (ix2 p q))
      + Ideal.div (recip V (ix2 p q)) (laneSumB (recip V) (ix2 p q))) * Ideal.ofBits .f32 0x3F000000#32 = _
  rw [laneSumB_apply, laneSumB_apply]
  simp only [expo_apply, recip_apply]
  rfl

/-! ## The linear map at an entry -/

/-- The product's operand indices, coordinate by coordinate: the left operand is read at (row of the output, `k`),
    the right one at (`k`, lane of the output). -/
theorem lhs_row (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
theorem lhs_contr (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_contr (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_lane (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

theorem lin_apply (x0 : FVec Ideal S8192x128 .f32) (x1 : FVec Ideal S128x128 .f32) (x2 : FVec Ideal S1x128 .f32)
    (p : Fin 8192) (j : Fin 128) :
    lin x0 x1 x2 (ix2 p j) = (∑ k : Fin 128, x0 (ix2 p k) * x1 (ix2 k j)) + x2 (ix2 (0 : Fin 1) j) := by
  unfold lin
  rw [shapeCast_self, shapeCast_self, shapeCast_self]
  refine congrArg₂ (· + ·) ?_ (broadcastTo_1b_ab_apply x2 _ p j)
  refine (Ideal.matmul_constant_zero_apply dot_S8192x128_S128x128_S8192x128_1_0_0_1_n_n none x0 x1 (ix2 p j)).trans ?_
  rw [← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p j)
      ((contrEquiv1 dot_S8192x128_S128x128_S8192x128_1_0_0_1_n_n 128 rfl rfl).symm k) = ix2 p k := funext fun a => Fin.ext (by
    match a with
    | ⟨0, _⟩ => exact lhs_row _ _
    | ⟨1, _⟩ => exact (lhs_contr _ _).trans hk)
  have er : dot_S8192x128_S128x128_S8192x128_1_0_0_1_n_n.rhsIdx (ix2 p j)
      ((contrEquiv1 dot_S8192x128_S128x128_S8192x128_1_0_0_1_n_n 128 rfl rfl).symm k) = ix2 k j := funext fun a => Fin.ext (by
    match a with
    | ⟨0, _⟩ => exact (rhs_contr _ _).trans hk
    | ⟨1, _⟩ => exact rhs_lane _ _)
  rw [el, er]

/-- The stored block at `(p, q)`, from the three loaded blocks. -/
theorem payload_apply (x0 : FVec Ideal S8192x128 .f32) (x1 : FVec Ideal S128x128 .f32) (x2 : FVec Ideal S1x128 .f32)
    (p : Fin 8192) (q : Fin 128) :
    k0_pay1 (F := Ideal) x0 x1 x2 (ix2 p q)
      = fused (Ideal.ofBits .f32 0x3F800000#32) (Ideal.ofBits .f32 0x3F000000#32)
          (fun j : Fin 128 => (∑ k : Fin 128, x0 (ix2 p k) * x1 (ix2 k j)) + x2 (ix2 (0 : Fin 1) j)) q := by
  rw [payload_eq, tail_apply]
  exact congrArg (fun r => fused _ _ r q) (funext fun j => lin_apply x0 x1 x2 p j)

end Cert.KernelRow

end
-- ==== Proof.KernelBlocks.lean ====
/-
  From the blocks to the whole array.

  The grid has 32 points; point `t` reads rows `8192·t … 8192·t + 8191` of the flattened input (the weight and the bias
  whole, at every point) and writes the same rows of the flattened output. So what point `t` writes back is block `t` of
  ONE function of the arrays the region finds (`flat`: row `r`, lane `q` ↦ the fused pair of softmaxes of row `r` of
  `X · WT + B` at lane `q`), the 32 blocks cover every row, and the output array after the run is that function.
-/
import proofs.«121468_j52063593562939_2_alg».proof.Proof.Gen.KernelIdeal.Frame
import proofs.«121468_j52063593562939_2_alg».proof.Proof.KernelRow
import Idealize.ShloMosaic.Lib.Pipeline.Value

set_option maxRecDepth 16384

open scoped BigOperators

noncomputable section

namespace Cert.KernelBlocks

open Cert.KernelIdeal Cert.KernelIdeal.Gen Idealize.ShloMosaic Idealize.ShloMosaic.TcCoe Idealize.SL.Sem
open Idealize.ShloMosaic.ValueIdx Cert.DualSoftmax
open Idealize.ShloMosaic.Pipeline (Dat)

variable (m : (ℓ : Loc nD τ sig) → Buf (Elt Ideal) ℓ) (ρ : Dev nD → PrngReg)

/-- Row `r` of `X · WT + B`: lane `j` holds `Σ_k X(r,k) · WT(k,j) + B(0,j)`. -/
def flatRow (X : S262144x128.Idx → EReal) (WT : S128x128.Idx → EReal) (B : S1x128.Idx → EReal) (r : Fin 262144) : Fin 128 → EReal :=
  fun j => (∑ k : Fin 128, X (ix2 r k) * WT (ix2 k j)) + B (ix2 (0 : Fin 1) j)

/-- The flattened output as one function of the flattened input, the transposed weight and the bias row. -/
def flat (X : S262144x128.Idx → EReal) (WT : S128x128.Idx → EReal) (B : S1x128.Idx → EReal) : S262144x128.Idx → EReal :=
  fun i => fused (Ideal.ofBits .f32 0x3F800000#32) (Ideal.ofBits .f32 0x3F000000#32) (flatRow X WT B (i 0)) (i 1)

/-- A block's entry `(p, q)` is the function at the array index `i`, once the loaded blocks are known to be the arrays
    read at `i`'s row (for `x`) and whole (for the weight and the bias), and `q` is `i`'s lane. -/
theorem block_entry (X : S262144x128.Idx → EReal) (WT : S128x128.Idx → EReal) (B : S1x128.Idx → EReal)
    (x0 : FVec Ideal S8192x128 .f32) (x1 : FVec Ideal S128x128 .f32) (x2 : FVec Ideal S1x128 .f32)
    (i : S262144x128.Idx) (p : Fin 8192) (q : Fin 128)
    (h0 : ∀ k : Fin 128, x0 (ix2 p k) = X (ix2 (i 0) k)) (h1 : ∀ (k j : Fin 128), x1 (ix2 k j) = WT (ix2 k j))
    (h2 : ∀ j : Fin 128, x2 (ix2 (0 : Fin 1) j) = B (ix2 (0 : Fin 1) j)) (hq : i 1 = q) :
    k0_pay1 (F := Ideal) x0 x1 x2 (ix2 p q) = flat X WT B i := by
  rw [Cert.KernelRow.payload_apply]
  unfold flat flatRow
  rw [hq]
  exact congrArg (fun r => fused _ _ r q) (funext fun j => by
    rw [h2 j]
    exact congrArg (· + B (ix2 (0 : Fin 1) j)) (Finset.sum_congr rfl fun k _ => by rw [h0 k, h1 k j]))

theorem hz : (![0, 0] : Fin 2 → Nat) = fun _ => 0 := funext fun a => by fin_cases a <;> rfl

/-- The index maps over the grid: the input's and the output's block row is the point itself, everything else is block 0. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 31 :=
  (by decide +kernel : ∀ t : Fin grid0.N, _)

/-- Every block row of the output is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- What point `t` writes back is block `t` of `flat` of the arrays as the region finds them. -/
theorem flushed_eq (c : Dev nD) (t : Fin cfg0.N) :
    (dats m 0 c).flushed 3 t
      = ((cfg0.win 3).blk t).view.read (Elt Ideal) (flat (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S8192x128) hz, View.ld_unit_zero (S := S128x128) hz, View.ld_unit_zero (S := S1x128) hz]
  obtain ⟨e0, e1, e2, e3, e4, e5, e6, e7⟩ := idx_facts t
  funext y
  obtain ⟨p, q, rfl⟩ : ∃ (p : Fin 8192) (q : Fin 128), y = ix2 p q := ⟨y 0, y 1, eq_ix2 y⟩
  refine block_entry (V m c main_v0) (V m c main_v1) (V m c main_v2) (iblk m c 0 t) (iblk m c 1 t) (iblk m c 2 t)
    (((cfg0.win 3).blk t).view.emb (ix2 p q)) p q ?_ ?_ ?_ ?_
  · intro k
    show V m c main_v0 (((cfg0.win 0).blk t).view.emb (ix2 p k)) = V m c main_v0 _
    refine congrArg (V m c main_v0) (funext fun a => Fin.ext ?_)
    match a with
    | ⟨0, _⟩ => show win0_0.index t (0 : Fin 2) * 8192 + 1 * p.val = win0_3.index t (0 : Fin 2) * 8192 + 1 * p.val; omega
    | ⟨1, _⟩ => show win0_0.index t (1 : Fin 2) * 128 + 1 * k.val = k.val; omega
  · intro k j
    show V m c main_v1 (((cfg0.win 1).blk t).view.emb (ix2 k j)) = V m c main_v1 _
    refine congrArg (V m c main_v1) (funext fun a => Fin.ext ?_)
    match a with
    | ⟨0, _⟩ => show win0_1.index t (0 : Fin 2) * 128 + 1 * k.val = k.val; omega
    | ⟨1, _⟩ => show win0_1.index t (1 : Fin 2) * 128 + 1 * j.val = j.val; omega
  · intro j
    show V m c main_v2 (((cfg0.win 2).blk t).view.emb (ix2 (0 : Fin 1) j)) = V m c main_v2 _
    refine congrArg (V m c main_v2) (funext fun a => Fin.ext ?_)
    match a with
    | ⟨0, _⟩ => show win0_2.index t (0 : Fin 2) * 1 + 1 * 0 = 0; omega
    | ⟨1, _⟩ => show win0_2.index t (1 : Fin 2) * 128 + 1 * j.val = j.val; omega
  · apply Fin.ext
    show win0_3.index t (1 : Fin 2) * 128 + 1 * q.val = q.val
    omega

/-- An index of the output array is in point `t`'s block iff each coordinate is in the block's range on its axis. -/
theorem mem_blk (t : Fin cfg0.N) (i : S262144x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v3).slice (win0_3.rect t)).set ↔ _
  rw [View.set_slice_whole, Rect.mem_set_unit]
  exact Iff.rfl

/-- Every index of the output array lies in the block of the point its row falls in. -/
theorem cover (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  obtain ⟨t, ht⟩ := idx_onto ⟨(i 0).val / 8192, by omega⟩
  have q0 : win0_3.index t (0 : Fin 2) = (i 0).val / 8192 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 128 ≤ (i 1).val ∧ (i 1).val < win0_3.index t (1 : Fin 2) * 128 + 128; omega

/-- The output array after the run. -/
theorem final (c : Dev nD) :
    (dats m 0 c).arrAt 3 cfg0.N = flat (V m c main_v0) (V m c main_v1) (V m c main_v2) :=
  (dats m 0 c).arrAt_eq_of_cover 3 (flat (V m c main_v0) (V m c main_v1) (V m c main_v2)) (fun t _ => flushed_eq m c t) (cover)

end Cert.KernelBlocks

end
-- ==== Proof.Result.lean ====
/-
  The result both programs compute, as one function of the three arguments.

  For the input `x` (4 × 16 × 4096 × 128), the weight `W` (128 × 128) and the bias `b` (128): at `(b, h, s, d)` take the row
  `v_j = Σ_k x(b,h,s,k) · W(j,k) + bias(j)` and return the half-sum of the softmax of `v` and of the softmax of `−v` at
  lane `d`, in the fused form `DualSoftmax.fused`.
-/
import proofs.«121468_j52063593562939_2_alg».proof.Proof.DualSoftmax
import Idealize.ShloMosaic.Lib.ValueIdx

open scoped BigOperators

noncomputable section

namespace Cert.Result

open Idealize.ShloMosaic Idealize.ShloMosaic.ValueIdx Cert.DualSoftmax

/-- The pre-softmax row at `(b, h, s)`. -/
def linRow (a0 : (⟨4, ![4, 16, 4096, 128]⟩ : Shape).Idx → EReal) (a1 : (⟨2, ![128, 128]⟩ : Shape).Idx → EReal)
    (a2 : (⟨1, ![128]⟩ : Shape).Idx → EReal) (b : Fin 4) (h : Fin 16) (s : Fin 4096) : Fin 128 → EReal :=
  fun j => (∑ k : Fin 128, a0 (ix4 b h s k) * a1 (ix2 j k)) + a2 (ix1 j)

/-- The result array. -/
def result (a0 : (⟨4, ![4, 16, 4096, 128]⟩ : Shape).Idx → EReal) (a1 : (⟨2, ![128, 128]⟩ : Shape).Idx → EReal)
    (a2 : (⟨1, ![128]⟩ : Shape).Idx → EReal) : (⟨4, ![4, 16, 4096, 128]⟩ : Shape).Idx → EReal :=
  fun i => fused (Ideal.ofBits .f32 0x3F800000#32) (Ideal.ofBits .f32 0x3F000000#32) (linRow a0 a1 a2 (i 0) (i 1) (i 2)) (i 3)

end Cert.Result

end
-- ==== Proof.KernelRun.lean ====
/-
  The kernel program's run, read: around the region the host flattens `x` to 262144 × 128, transposes the weight and
  recasts the bias as one row; after it the flattened output is recast to 4 × 16 × 4096 × 128. Reading the recasts at an
  index — row `(b·16 + h)·4096 + s` of the flattened arrays is `(b, h, s)` — the program's result is `Result.result` of
  its three arguments, which it leaves unchanged.
-/
import proofs.«121468_j52063593562939_2_alg».proof.Proof.KernelBlocks
import proofs.«121468_j52063593562939_2_alg».proof.Proof.Result
import Idealize.ShloMosaic.Lib.StableHlo.Run
import Idealize.ShloMosaic.Lib.ValueLayout

set_option maxRecDepth 16384

open scoped BigOperators

noncomputable section

namespace Cert.KernelRun

open Cert.KernelIdeal Cert.KernelIdeal.Gen Idealize.ShloMosaic Idealize.ShloMosaic.TcCoe Idealize.SL.Sem Idealize.ShloMosaic.StableHlo
open Idealize.ShloMosaic.ValueIdx Cert.DualSoftmax Cert.KernelBlocks Cert.Result
open Idealize.ShloMosaic.Pipeline (Dat)

variable (m : (ℓ : Loc nD τ sig) → Buf (Elt Ideal) ℓ) (ρ : Dev nD → PrngReg)

/-! ## The arrays the region finds -/

theorem V_main_v0 (c : Dev nD) : (V m c main_v0 : S262144x128.Idx → EReal)
    = shapeCast S262144x128 (m ((c : Thread nD τ).loc main_arg0)) shapeCasts_S4x16x4096x128_S262144x128 := by
  show StableHlo.after hostOps0 (fun b => m (c, b)) (Proc.devRef .tc main_v0) = _
  after_results
  try rfl

theorem V_main_v1 (c : Dev nD) : (V m c main_v1 : S128x128.Idx → EReal)
    = transpose S128x128 [1, 0] (m ((c : Thread nD τ).loc main_arg1)) transposes_S128x128_S128x128_1_0 := by
  show StableHlo.after hostOps0 (fun b => m (c, b)) (Proc.devRef .tc main_v1) = _
  after_results
  try rfl

theorem V_main_v2 (c : Dev nD) : (V m c main_v2 : S1x128.Idx → EReal)
    = shapeCast S1x128 (m ((c : Thread nD τ).loc main_arg2)) shapeCasts_S128_S1x128 := by
  show StableHlo.after hostOps0 (fun b => m (c, b)) (Proc.devRef .tc main_v2) = _
  after_results
  try rfl

/-! ## The recasts at an index -/

/-- The flattened input at row `(b·16 + h)·4096 + s` is the input at `(b, h, s)`. -/
theorem flatten_apply (a0 : S4x16x4096x128.Idx → EReal) (hc : S4x16x4096x128.ShapeCasts S262144x128)
    (b : Fin 4) (h : Fin 16) (s : Fin 4096) (k : Fin 128) (r : Fin 262144) (hr : r.val = (b.val * 16 + h.val) * 4096 + s.val) :
    shapeCast S262144x128 a0 hc (ix2 r k) = a0 (ix4 b h s k) :=
  shapeCast_apply a0 hc _ _ (by
    rw [Shape.rowMajor_val_two, Shape.rowMajor_val_four]
    show (((b.val * 16 + h.val) * 4096 + s.val) * 128 + k.val) = r.val * 128 + k.val
    rw [hr])

/-- The output recast to four axes reads, at `(b, h, s, d)`, the flattened output at row `(b·16 + h)·4096 + s`. -/
theorem unflatten_apply (o : S262144x128.Idx → EReal) (hc : S262144x128.ShapeCasts S4x16x4096x128)
    (b : Fin 4) (h : Fin 16) (s : Fin 4096) (d : Fin 128) (r : Fin 262144) (hr : r.val = (b.val * 16 + h.val) * 4096 + s.val) :
    shapeCast S4x16x4096x128 o hc (ix4 b h s d) = o (ix2 r d) :=
  shapeCast_apply o hc _ _ (by
    rw [Shape.rowMajor_val_two, Shape.rowMajor_val_four]
    show r.val * 128 + d.val = (((b.val * 16 + h.val) * 4096 + s.val) * 128 + d.val)
    rw [hr])

/-- The recast of the flattened output is the result of the three arguments. -/
theorem unflatten_flat (c : Dev nD) :
    shapeCast S4x16x4096x128 (flat (V m c main_v0) (V m c main_v1) (V m c main_v2)) shapeCasts_S262144x128_S4x16x4096x128
      = result (m ((c : Thread nD τ).loc main_arg0)) (m ((c : Thread nD τ).loc main_arg1)) (m ((c : Thread nD τ).loc main_arg2)) := by
  funext i
  obtain ⟨b, h, s, d, rfl⟩ : ∃ (b : Fin 4) (h : Fin 16) (s : Fin 4096) (d : Fin 128), i = ix4 b h s d := ⟨i 0, i 1, i 2, i 3, eq_ix4 i⟩
  have hb := b.isLt
  have hh := h.isLt
  have hs := s.isLt
  have hlt : (b.val * 16 + h.val) * 4096 + s.val < 262144 := by omega
  refine (unflatten_apply _ _ b h s d ⟨(b.val * 16 + h.val) * 4096 + s.val, hlt⟩ rfl).trans ?_
  show fused _ _ (flatRow (V m c main_v0) (V m c main_v1) (V m c main_v2) ⟨(b.val * 16 + h.val) * 4096 + s.val, hlt⟩) d
    = fused _ _ (linRow (m ((c : Thread nD τ).loc main_arg0)) (m ((c : Thread nD τ).loc main_arg1)) (m ((c : Thread nD τ).loc main_arg2)) b h s) d
  refine congrArg (fun r => fused _ _ r d) (funext fun j => ?_)
  unfold flatRow linRow
  rw [V_main_v2, shapeCast_a_1a_apply]
  refine congrArg (· + _) (Finset.sum_congr rfl fun k _ => ?_)
  rw [V_main_v0, V_main_v1, transpose_ix2_apply, flatten_apply _ _ b h s k _ rfl]

/-! ## The program's result -/

/-- What the line after the region leaves in the result buffer. -/
theorem tail_result (c : Dev nD) :
    Pipeline.afterTail₀ cfgs (dats m) 0 (V0 m) [hostOps1] c main_v4
      = result (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  exact (congrArg (fun o => shapeCast S4x16x4096x128 o shapeCasts_S262144x128_S4x16x4096x128)
    ((Pipeline.withArrays_arr spec0 launch0.win.arr_inj c (V0 m c) (fun w => (dats m 0 c).arrAt w cfg0.N) 3).trans (final m c))).trans
      (unflatten_flat m c)

/-- The program's run: every weakly fair execution ends with the result buffer at `result` of the three arguments, and
    the arguments as they were. -/
theorem run : θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 (Pipeline.mem_restRefs_of main_v4 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelRun

end
-- ==== Proof.RefRow.lean ====
/-
  The reference program read at one element.

  The reference forms the row `v = x · Wᵀ + bias` (`linRow`: lane `j` of the row at `(b, h, s)` is
  `Σ_k x(b,h,s,k) · W(j,k) + bias(j)`), takes the softmax of `v` and the softmax of `−v` along the last axis — each as
  `exp (· − max) / Σ exp (· − max)`, the maximum taken from −∞ and once more against −∞ — adds the two and halves the
  sum. Read at the index `(b, h, s, d)` this is `twoPass half (linRow … b h s) d`. The steps below follow the program
  in its own order: the row, its maximum, the shifted exponentials, their sum, the quotient; the same for the negated
  row; then the half-sum.
-/
import proofs.«121468_j52063593562939_2_alg».proof.Proof.Gen.ReferenceIdeal.Read
import proofs.«121468_j52063593562939_2_alg».proof.Proof.DualSoftmax
import Idealize.ShloMosaic.Lib.ValueIdx
import Idealize.ShloMosaic.PureOps.Ideal.Laws
import Idealize.ShloMosaic.PureOps.Reduce

open scoped BigOperators

noncomputable section

namespace Cert.RefRow

open Idealize.ShloMosaic Idealize.ShloMosaic.ValueIdx Cert.ReferenceIdeal Cert.ReferenceIdeal.Gen Cert.ReferenceIdeal.Read
  Cert.DualSoftmax

/-- The word `0xFF800000` is −∞. -/
theorem negInf : Ideal.ofBits .f32 0xFF800000#32 = (⊥ : EReal) := by simp [Ideal.ofBits, Ideal.ieee]

/-- the pre-softmax row at (b, h, s): lane j holds Σ_k x(b,h,s,k)·W(j,k) + bias(j) -/
def linRow (x0 : (⟨S4x16x4096x128, .f32⟩ : BufTy).Contents (Elt Ideal)) (x1 : (⟨S128x128, .f32⟩ : BufTy).Contents (Elt Ideal)) (x2 : (⟨S128, .f32⟩ : BufTy).Contents (Elt Ideal))
    (b : Fin 4) (h : Fin 16) (s : Fin 4096) : Fin 128 → EReal :=
  fun j => (∑ k : Fin 128, x0 (ix4 b h s k) * x1 (ix2 j k)) + x2 (ix1 j)

section
variable (x0 : (⟨S4x16x4096x128, .f32⟩ : BufTy).Contents (Elt Ideal)) (x1 : (⟨S128x128, .f32⟩ : BufTy).Contents (Elt Ideal))
  (x2 : (⟨S128, .f32⟩ : BufTy).Contents (Elt Ideal)) (b : Fin 4) (h : Fin 16) (s : Fin 4096)

/-! ## The index functions of the layout operations, on indices given by coordinates -/

theorem lidx_v0 (j k : Fin 128) : lidx_main_v0 (ix4 b h s j) k = ix4 b h s k :=
  funext fun a => Fin.ext (by match a with | ⟨0, _⟩ => rfl | ⟨1, _⟩ => rfl | ⟨2, _⟩ => rfl | ⟨3, _⟩ => rfl)
theorem ridx_v0 (j k : Fin 128) : ridx_main_v0 (ix4 b h s j) k = ix2 j k :=
  funext fun a => Fin.ext (by match a with | ⟨0, _⟩ => rfl | ⟨1, _⟩ => rfl)
theorem idx_v1v2 (j : Fin 128) : idx_main_v1 (idx_main_v2 (ix4 b h s j)) = ix1 j :=
  funext fun a => Fin.ext (by match a with | ⟨0, _⟩ => rfl)
/-- a row-wise quantity broadcast back over the lanes is read at the row's index -/
theorem idx_v7v8 (j : Fin 128) : idx_main_v7 (idx_main_v8 (ix4 b h s j)) = ix3 b h s :=
  funext fun a => Fin.ext (by match a with | ⟨0, _⟩ => rfl | ⟨1, _⟩ => rfl | ⟨2, _⟩ => rfl)
theorem idx_v12v13 (j : Fin 128) : idx_main_v12 (idx_main_v13 (ix4 b h s j)) = ix3 b h s :=
  funext fun a => Fin.ext (by match a with | ⟨0, _⟩ => rfl | ⟨1, _⟩ => rfl | ⟨2, _⟩ => rfl)
theorem idx_v19v20 (j : Fin 128) : idx_main_v19 (idx_main_v20 (ix4 b h s j)) = ix3 b h s :=
  funext fun a => Fin.ext (by match a with | ⟨0, _⟩ => rfl | ⟨1, _⟩ => rfl | ⟨2, _⟩ => rfl)
theorem idx_v24v25 (j : Fin 128) : idx_main_v24 (idx_main_v25 (ix4 b h s j)) = ix3 b h s :=
  funext fun a => Fin.ext (by match a with | ⟨0, _⟩ => rfl | ⟨1, _⟩ => rfl | ⟨2, _⟩ => rfl)
theorem idx_v11 (k : Fin 128) : idx_main_v11 (ix3 b h s) k = ix4 b h s k :=
  funext fun a => Fin.ext (by match a with | ⟨0, _⟩ => rfl | ⟨1, _⟩ => rfl | ⟨2, _⟩ => rfl | ⟨3, _⟩ => rfl)
theorem idx_v23 (k : Fin 128) : idx_main_v23 (ix3 b h s) k = ix4 b h s k :=
  funext fun a => Fin.ext (by match a with | ⟨0, _⟩ => rfl | ⟨1, _⟩ => rfl | ⟨2, _⟩ => rfl | ⟨3, _⟩ => rfl)

/-- The shape fact the two maxima are read through: dropping the last axis of the array leaves the array of rows. -/
theorem redLast : Shape.Reduces S4x16x4096x128 [3] S4x16x4096 := by decide

/-- Inserting the lane `k` into the row index `(b, h, s)` gives `(b, h, s, k)`. -/
theorem lift_row (k : Fin 128) : redLast.lift (ix3 b h s) k = ix4 b h s k :=
  funext fun a => Fin.ext (by match a with | ⟨0, _⟩ => rfl | ⟨1, _⟩ => rfl | ⟨2, _⟩ => rfl | ⟨3, _⟩ => rfl)

/-! ## The row -/

/-- `%3`: the product with `Wᵀ` plus the bias is the row. -/
theorem v3_at (j : Fin 128) : val_main_v3 (F := Ideal) x0 x1 x2 (ix4 b h s j) = linRow x0 x1 x2 b h s j := by
  rw [val_main_v3_apply, val_main_v0_apply, val_main_v2_apply, val_main_v1_apply, idx_v1v2, Ideal.addf_def]
  unfold linRow
  refine congrArg (· + x2 (ix1 j)) (Finset.sum_congr rfl fun k _ => ?_)
  rw [lidx_v0, ridx_v0]

/-- `%4`: the maximum over the lanes, from −∞, is the row's maximum. -/
theorem v4_at : val_main_v4 (F := Ideal) x0 x1 x2 (ix3 b h s) = rowMax (linRow x0 x1 x2 b h s) := by
  unfold val_main_v4
  rw [Host.reduce_eq_fold_single FloatOps.maximumf _ _ reducesTo_S4x16x4096x128_S4x16x4096_d3 redLast h_S_ (ix3 b h s)]
  have hf : (val_main_v3 (F := Ideal) x0 x1 x2 ∘ redLast.lift (ix3 b h s)) = linRow x0 x1 x2 b h s :=
    funext fun (k : Fin 128) =>
      (congrArg (val_main_v3 (F := Ideal) x0 x1 x2) (lift_row b h s k)).trans (v3_at x0 x1 x2 b h s k)
  rw [hf, val_main_cst_apply, Ideal.ofBits_def, negInf]
  rfl

/-- `%6`: one more maximum against −∞ changes nothing. -/
theorem v6_at : val_main_v6 (F := Ideal) x0 x1 x2 (ix3 b h s) = rowMax (linRow x0 x1 x2 b h s) := by
  rw [val_main_v6_apply, val_main_v5_apply, val_main_cst_0_apply, v4_at, Ideal.maximumf_def, Ideal.ofBits_def, negInf]
  exact max_bot_left _

/-! ## The softmax of the row -/

/-- `%9`: the row less its maximum. -/
theorem v9_at (j : Fin 128) :
    val_main_v9 (F := Ideal) x0 x1 x2 (ix4 b h s j) = linRow x0 x1 x2 b h s j - rowMax (linRow x0 x1 x2 b h s) := by
  rw [val_main_v9_apply, val_main_v8_apply, val_main_v7_apply, idx_v7v8, v6_at, v3_at]
  rfl

/-- `%10`: its exponential. -/
theorem v10_at (j : Fin 128) :
    val_main_v10 (F := Ideal) x0 x1 x2 (ix4 b h s j)
      = Ideal.exp (linRow x0 x1 x2 b h s j - rowMax (linRow x0 x1 x2 b h s)) := by
  rw [val_main_v10_apply, v9_at]
  rfl

/-- `%11`: the sum of the exponentials over the lanes (the sum starts from the word `0`, which is zero). -/
theorem v11_at :
    val_main_v11 (F := Ideal) x0 x1 x2 (ix3 b h s)
      = ∑ k : Fin 128, Ideal.exp (linRow x0 x1 x2 b h s k - rowMax (linRow x0 x1 x2 b h s)) := by
  rw [val_main_v11_apply, val_main_cst_1_apply, Ideal.ofBits_def, Ideal.ofBits_zero_f32, zero_add]
  refine Finset.sum_congr rfl fun k _ => ?_
  rw [idx_v11, v10_at]

/-- `%14`: the quotient is the softmax of the row at its own maximum. -/
theorem v14_at (j : Fin 128) :
    val_main_v14 (F := Ideal) x0 x1 x2 (ix4 b h s j) = shifted (linRow x0 x1 x2 b h s) (rowMax (linRow x0 x1 x2 b h s)) j := by
  rw [val_main_v14_apply, val_main_v13_apply, val_main_v12_apply, idx_v12v13, v11_at, v10_at]
  rfl

/-! ## The softmax of the negated row -/

/-- `%15`: the negated row. -/
theorem v15_at (j : Fin 128) : val_main_v15 (F := Ideal) x0 x1 x2 (ix4 b h s j) = -linRow x0 x1 x2 b h s j := by
  rw [val_main_v15_apply, v3_at]
  rfl

/-- `%16`: the maximum over the lanes, from −∞, is the negated row's maximum. -/
theorem v16_at : val_main_v16 (F := Ideal) x0 x1 x2 (ix3 b h s) = rowMax (fun k => -linRow x0 x1 x2 b h s k) := by
  unfold val_main_v16
  rw [Host.reduce_eq_fold_single FloatOps.maximumf _ _ reducesTo_S4x16x4096x128_S4x16x4096_d3 redLast h_S_ (ix3 b h s)]
  have hf : (val_main_v15 (F := Ideal) x0 x1 x2 ∘ redLast.lift (ix3 b h s)) = fun k => -linRow x0 x1 x2 b h s k :=
    funext fun (k : Fin 128) =>
      (congrArg (val_main_v15 (F := Ideal) x0 x1 x2) (lift_row b h s k)).trans (v15_at x0 x1 x2 b h s k)
  rw [hf, val_main_cst_2_apply, Ideal.ofBits_def, negInf]
  rfl

/-- `%18`: one more maximum against −∞ changes nothing. -/
theorem v18_at : val_main_v18 (F := Ideal) x0 x1 x2 (ix3 b h s) = rowMax (fun k => -linRow x0 x1 x2 b h s k) := by
  rw [val_main_v18_apply, val_main_v17_apply, val_main_cst_3_apply, v16_at, Ideal.maximumf_def, Ideal.ofBits_def, negInf]
  exact max_bot_left _

/-- `%21`: the negated row less its maximum. -/
theorem v21_at (j : Fin 128) :
    val_main_v21 (F := Ideal) x0 x1 x2 (ix4 b h s j)
      = -linRow x0 x1 x2 b h s j - rowMax (fun k => -linRow x0 x1 x2 b h s k) := by
  rw [val_main_v21_apply, val_main_v20_apply, val_main_v19_apply, idx_v19v20, v18_at, v15_at]
  rfl

/-- `%22`: its exponential. -/
theorem v22_at (j : Fin 128) :
    val_main_v22 (F := Ideal) x0 x1 x2 (ix4 b h s j)
      = Ideal.exp (-linRow x0 x1 x2 b h s j - rowMax (fun k => -linRow x0 x1 x2 b h s k)) := by
  rw [val_main_v22_apply, v21_at]
  rfl

/-- `%23`: the sum of these exponentials over the lanes. -/
theorem v23_at :
    val_main_v23 (F := Ideal) x0 x1 x2 (ix3 b h s)
      = ∑ k : Fin 128, Ideal.exp (-linRow x0 x1 x2 b h s k - rowMax (fun k => -linRow x0 x1 x2 b h s k)) := by
  rw [val_main_v23_apply, val_main_cst_4_apply, Ideal.ofBits_def, Ideal.ofBits_zero_f32, zero_add]
  refine Finset.sum_congr rfl fun k _ => ?_
  rw [idx_v23, v22_at]

/-- `%26`: the quotient is the softmax of the negated row at its own maximum. -/
theorem v26_at (j : Fin 128) :
    val_main_v26 (F := Ideal) x0 x1 x2 (ix4 b h s j)
      = shifted (fun k => -linRow x0 x1 x2 b h s k) (rowMax fun k => -linRow x0 x1 x2 b h s k) j := by
  rw [val_main_v26_apply, val_main_v25_apply, val_main_v24_apply, idx_v24v25, v23_at, v22_at]
  rfl

/-! ## The result -/

/-- `%29`: the reference's result at `(b, h, s, d)` is half the sum of the two softmaxes of the row at `(b, h, s)`. -/
theorem val_main_v29_at (d : Fin 128) :
    val_main_v29 (F := Ideal) x0 x1 x2 (ix4 b h s d) = twoPass (Ideal.ofBits .f32 0x3F000000#32) (linRow x0 x1 x2 b h s) d := by
  rw [val_main_v29_apply, val_main_v27_apply, val_main_v28_apply, val_main_cst_5_apply, v14_at, v26_at]
  rfl

end

end Cert.RefRow

end
-- ==== Proof.FiniteInputs.lean ====
/-
  From the precondition to "every entry is a real number".

  The precondition is `|x| < +∞` at every entry of each of the three arrays, each array's comparisons reduced by
  AND to one word, and the three words AND-ed; the claim's hypothesis says the result is 1. An AND that is 1 had 1
  on both sides, and an AND-reduction over all axes that is 1 had 1 at every entry. The bound is the pattern of +∞
  (exponent all ones, fraction zero), and the absolute value of an extended real `x` is `max x (−x)`: at `x = +∞`
  and at `x = −∞` it is +∞, which is not below +∞; so `x` is neither, that is, a real number.
-/
import proofs.«121468_j52063593562939_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic
open Cert.Pre_finite_inputs

/-- The shape with no axes has one index. -/
instance : Subsingleton S_.Idx := ⟨fun a b => funext fun d => d.elim0⟩

/-- The bound of the comparison is +∞. -/
theorem bound_eq_top : Ideal.ofBits .f32 0x7F800000#32 = (⊤ : EReal) := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = ((r : ℝ) : EReal) := by
  rw [bound_eq_top] at h
  induction x using EReal.rec with
  | bot => simp [Ideal.cmp] at h
  | coe r => exact ⟨r, rfl⟩
  | top => simp [Ideal.cmp] at h

/-- THE PRECONDITION DECODED: every entry of the three arrays is a real number. -/
theorem real_of_pre [Cert.Pre_finite_inputs.Facts] (a0 : FVec Ideal S4x16x4096x128 .f32) (a1 : FVec Ideal S128x128 .f32) (a2 : FVec Ideal S128 .f32)
    (h : Cert.Pre_finite_inputs.fn (F := Ideal) a0 a1 a2 = fun _ => 1#1) :
    (∀ i, ∃ r : ℝ, a0 i = ((r : ℝ) : EReal)) ∧ (∀ i, ∃ r : ℝ, a1 i = ((r : ℝ) : EReal)) ∧ (∀ i, ∃ r : ℝ, a2 i = ((r : ℝ) : EReal)) := by
  have e := congrFun h ValueIdx.ix0
  dsimp only [Cert.Pre_finite_inputs.fn] at e
  obtain ⟨e01, e2⟩ := IntOp.andi_eq_one.1 e
  obtain ⟨e0, e1⟩ := IntOp.andi_eq_one.1 e01
  refine ⟨fun i => ?_, fun i => ?_, fun i => ?_⟩
  · exact real_of_abs_lt _ (Host.reduce_andi_all _ _ _ _ _ e0 i)
  · exact real_of_abs_lt _ (Host.reduce_andi_all _ _ _ _ _ e1 i)
  · exact real_of_abs_lt _ (Host.reduce_andi_all _ _ _ _ _ e2 i)

end Cert.FiniteInputs

end
-- ==== Proof.DualSoftmaxLaw.lean ====
/-
  The two ways of computing the half-sum of the softmax of a row and of its negation agree on a row of real numbers.

  On a nonempty row of reals the largest entry (taken from −∞) is itself a real number: it is at least the first
  entry, and a maximum of reals never reaches +∞. Every difference `v k − c` is then real, every exponential a
  positive real, every sum of them a positive real, and both quotients are ordinary real quotients. A softmax does
  not depend on its shift: `exp (w j − c) / Σ_k exp (w k − c) = exp (w j) / Σ_k exp (w k)`, the factor `exp c`
  cancelling. The normalised reciprocals `(1 / exp (u j − M)) / Σ_k (1 / exp (u k − M))` are the softmax of `−u`
  at the shift `−M`, hence equal to the softmax of `−u` at any other shift.

  `dot_real`: a dot product of two real rows plus a real bias, computed among the extended reals, is the real one.
-/
import proofs.«121468_j52063593562939_2_alg».proof.Proof.DualSoftmax

open scoped BigOperators

noncomputable section

namespace Cert.DualSoftmax

open Idealize.ShloMosaic

/-- A finite sum of real numbers taken among the extended reals is the real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The largest entry of a nonempty row of reals is a real number. -/
theorem rowMax_real {n : ℕ} (hn : 0 < n) (u : Fin n → ℝ) :
    ∃ M : ℝ, rowMax (fun k => ((u k : ℝ) : EReal)) = ((M : ℝ) : EReal) := by
  have htop : rowMax (fun k => ((u k : ℝ) : EReal)) ≠ ⊤ :=
    ((Finset.fold_max_lt _).2 ⟨bot_lt_top, fun x _ => EReal.coe_lt_top _⟩).ne
  have hle : ((u ⟨0, hn⟩ : ℝ) : EReal) ≤ rowMax (fun k => ((u k : ℝ) : EReal)) :=
    (Finset.le_fold_max _).2 (Or.inr ⟨⟨0, hn⟩, Finset.mem_univ _, le_rfl⟩)
  have hbot : rowMax (fun k => ((u k : ℝ) : EReal)) ≠ ⊥ :=
    (lt_of_lt_of_le (EReal.bot_lt_coe _) hle).ne'
  exact ⟨_, (EReal.coe_toReal htop hbot).symm⟩

/-- The reciprocal of the exponential of a real is the exponential of its negative. -/
theorem one_div_exp (r : ℝ) :
    Ideal.div 1 (Ideal.exp ((r : ℝ) : EReal)) = ((Real.exp (-r) : ℝ) : EReal) := by
  rw [Ideal.exp_coe, Ideal.div_coe (Real.exp_ne_zero r), one_mul, Real.exp_neg, one_div]

/-- A quotient of reals by a nonzero real is the real quotient. -/
theorem div_real (a s : ℝ) (hs : s ≠ 0) :
    Ideal.div ((a : ℝ) : EReal) ((s : ℝ) : EReal) = ((a / s : ℝ) : EReal) := by
  rw [Ideal.div_coe hs, ← EReal.coe_mul, mul_one_div]

/-- A sum of exponentials over a nonempty index set is not zero. -/
theorem sum_exp_ne_zero {n : ℕ} (hn : 0 < n) (w : Fin n → ℝ) : (∑ k : Fin n, Real.exp (w k)) ≠ 0 :=
  haveI : Nonempty (Fin n) := ⟨⟨0, hn⟩⟩
  (Finset.sum_pos (fun k _ => Real.exp_pos (w k)) Finset.univ_nonempty).ne'

/-- The softmax of a real row at a real shift is a real quotient. -/
theorem shifted_real {n : ℕ} (hn : 0 < n) (w : Fin n → ℝ) (c : ℝ) (j : Fin n) :
    shifted (fun k => ((w k : ℝ) : EReal)) ((c : ℝ) : EReal) j
      = ((Real.exp (w j - c) / ∑ k : Fin n, Real.exp (w k - c) : ℝ) : EReal) := by
  unfold shifted
  simp only [← EReal.coe_sub, Ideal.exp_coe]
  rw [coe_sum, div_real _ _ (sum_exp_ne_zero hn _)]

/-- The normalised reciprocals of the exponentials of a real row are a real quotient: the softmax of the negated
    row at the negated shift. -/
theorem shiftedInv_real {n : ℕ} (hn : 0 < n) (u : Fin n → ℝ) (M : ℝ) (j : Fin n) :
    shiftedInv 1 (fun k => ((u k : ℝ) : EReal)) ((M : ℝ) : EReal) j
      = ((Real.exp (-u j - -M) / ∑ k : Fin n, Real.exp (-u k - -M) : ℝ) : EReal) := by
  unfold shiftedInv
  simp only [← EReal.coe_sub, one_div_exp]
  rw [coe_sum, div_real _ _ (sum_exp_ne_zero hn _)]
  have h : ∀ k, -(u k - M) = -u k - -M := fun k => by ring
  simp only [h]

/-- A softmax does not depend on its shift. -/
theorem softmax_shift {n : ℕ} (w : Fin n → ℝ) (c : ℝ) (j : Fin n) :
    Real.exp (w j - c) / ∑ k : Fin n, Real.exp (w k - c) = Real.exp (w j) / ∑ k : Fin n, Real.exp (w k) := by
  simp only [Real.exp_sub]
  rw [← Finset.sum_div, div_div_div_cancel_right₀ (Real.exp_ne_zero c)]

/-- On a nonempty row of reals, the softmax plus the normalised reciprocals of the same exponentials is the softmax
    plus the softmax of the negated row. -/
theorem fused_eq_twoPass {n : ℕ} (hn : 0 < n) (u : Fin n → ℝ) (half : EReal) (j : Fin n) :
    fused 1 half (fun k => ((u k : ℝ) : EReal)) j = twoPass half (fun k => ((u k : ℝ) : EReal)) j := by
  obtain ⟨M, hM⟩ := rowMax_real hn u
  obtain ⟨M', hM'⟩ := rowMax_real hn (fun k => -u k)
  have hneg : (fun k => -((u k : ℝ) : EReal)) = fun k => (((-u k : ℝ)) : EReal) :=
    funext fun k => (EReal.coe_neg (u k)).symm
  have key : shiftedInv 1 (fun k => ((u k : ℝ) : EReal)) (rowMax fun k => ((u k : ℝ) : EReal)) j
      = shifted (fun k => -((u k : ℝ) : EReal)) (rowMax fun k => -((u k : ℝ) : EReal)) j := by
    rw [hneg, hM, hM', shiftedInv_real hn, shifted_real hn (fun k => -u k), softmax_shift (fun k => -u k),
      softmax_shift (fun k => -u k)]
  unfold fused twoPass
  rw [key]

/-- A dot product of real rows plus a real bias, taken among the extended reals, is the real one. -/
theorem dot_real {n : ℕ} (x w : Fin n → ℝ) (b : ℝ) :
    (∑ k : Fin n, ((x k : ℝ) : EReal) * ((w k : ℝ) : EReal)) + ((b : ℝ) : EReal)
      = (((∑ k : Fin n, x k * w k) + b : ℝ) : EReal) := by
  simp only [← EReal.coe_mul]
  rw [coe_sum, ← EReal.coe_add]

end Cert.DualSoftmax

end
-- ==== Proof.Bridge.lean ====
/-
  The result, as the two-pass half-sum of softmaxes, on real inputs.

  When every entry of the three arguments is a real number, each entry of the pre-softmax row
  `v_j = Σ_k x(b,h,s,k) · W(j,k) + bias(j)` is a real number (a finite sum of products of reals plus a real). The
  result is the fused half-sum at the constant 1 (the pattern of 1.0) on that row, and on a row of reals the fused
  half-sum is the half-sum of the softmax of `v` and the softmax of `−v`.
-/
import proofs.«121468_j52063593562939_2_alg».proof.Proof.Result
import proofs.«121468_j52063593562939_2_alg».proof.Proof.DualSoftmaxLaw
import Idealize.ShloMosaic.PureOps.Ideal

open scoped BigOperators

noncomputable section

namespace Cert.Bridge

open Idealize.ShloMosaic Idealize.ShloMosaic.ValueIdx Cert.DualSoftmax Cert.Result

/-- The pattern of 1.0 denotes 1: sign 0, exponent 127 (the bias), fraction 0, so `2^23 · 2^(127 − 127 − 23) = 1`. -/
theorem one_f32 : Ideal.ofBits .f32 0x3F800000#32 = (1 : EReal) := by
  simp [Ideal.ofBits, Ideal.ieee]
  rw [← EReal.coe_mul]
  norm_num

/-- On real inputs the pre-softmax row is a row of reals. -/
theorem linRow_real (a0 : (⟨4, ![4, 16, 4096, 128]⟩ : Shape).Idx → EReal) (a1 : (⟨2, ![128, 128]⟩ : Shape).Idx → EReal)
    (a2 : (⟨1, ![128]⟩ : Shape).Idx → EReal)
    (h0 : ∀ i, ∃ r : ℝ, a0 i = ((r : ℝ) : EReal)) (h1 : ∀ i, ∃ r : ℝ, a1 i = ((r : ℝ) : EReal))
    (h2 : ∀ i, ∃ r : ℝ, a2 i = ((r : ℝ) : EReal)) (b : Fin 4) (h : Fin 16) (s : Fin 4096) :
    ∃ u : Fin 128 → ℝ, linRow a0 a1 a2 b h s = fun j => ((u j : ℝ) : EReal) := by
  choose x hx using h0
  choose w hw using h1
  choose c hc using h2
  refine ⟨fun j => (∑ k : Fin 128, x (ix4 b h s k) * w (ix2 j k)) + c (ix1 j), funext fun j => ?_⟩
  unfold linRow
  simp only [hx, hw, hc]
  exact dot_real (fun k => x (ix4 b h s k)) (fun k => w (ix2 j k)) (c (ix1 j))

/-- On real inputs the result at `(b, h, s, d)` is the half-sum of the softmax of the row at `(b, h, s)` and the
    softmax of its negation, at lane `d`. -/
theorem result_eq_twoPass (a0 : (⟨4, ![4, 16, 4096, 128]⟩ : Shape).Idx → EReal) (a1 : (⟨2, ![128, 128]⟩ : Shape).Idx → EReal) (a2 : (⟨1, ![128]⟩ : Shape).Idx → EReal)
    (h0 : ∀ i, ∃ r : ℝ, a0 i = ((r : ℝ) : EReal)) (h1 : ∀ i, ∃ r : ℝ, a1 i = ((r : ℝ) : EReal)) (h2 : ∀ i, ∃ r : ℝ, a2 i = ((r : ℝ) : EReal))
    (b : Fin 4) (h : Fin 16) (s : Fin 4096) (d : Fin 128) :
    result a0 a1 a2 (ix4 b h s d) = twoPass (Ideal.ofBits .f32 0x3F000000#32) (linRow a0 a1 a2 b h s) d := by
  obtain ⟨u, hu⟩ := linRow_real a0 a1 a2 h0 h1 h2 b h s
  show fused (Ideal.ofBits .f32 0x3F800000#32) (Ideal.ofBits .f32 0x3F000000#32) (linRow a0 a1 a2 b h s) d = _
  rw [one_f32, hu]
  exact fused_eq_twoPass (by norm_num) u _ d

end Cert.Bridge

end
-- ==== Proof.lean ====
/-
  The five claims of this certificate.

  Both programs compute, from the input `x` (4 × 16 × 4096 × 128), a weight `W` (128 × 128) and a bias `b` (128), the rows
  `v = x · Wᵀ + b` and return `(softmax v + softmax (−v)) / 2` along the last axis. The kernel flattens `x` to
  262144 rows, works on 32 blocks of 8192 rows and takes the second softmax from the reciprocals of the first one's
  exponentials, `(1/e) / Σ (1/e)` with `e = exp (v − max v)`; the reference computes `softmax (−v)` afresh, with its own
  maximum. Over the extended reals the two agree on every row of REAL numbers (`DualSoftmax.fused_eq_twoPass`: a softmax
  does not depend on its shift), and under the precondition — every input entry finite — every row `v` is real
  (`FiniteInputs.real_of_pre`, `DualSoftmax.dot_real`).

  The kernel program's run is read in `KernelRow` (one block entry), `KernelBlocks` (the blocks cover the array) and
  `KernelRun` (the reshapes around the region): its result is `Result.result` of the three arguments. The reference's
  run is read in `RefRow`: its result at `(b, h, s, d)` is `DualSoftmax.twoPass` of the same row. `Bridge` joins them.
  The three frame claims are the programs' runs with the result dropped; the idealization rewrote nothing, so
  `preserves` is trivial.
-/
import proofs.«121468_j52063593562939_2_alg».proof.Defs
import proofs.«121468_j52063593562939_2_alg».proof.Proof.Gen.Kernel
import proofs.«121468_j52063593562939_2_alg».proof.Proof.Gen.Kernel.Skeleton
import proofs.«121468_j52063593562939_2_alg».proof.Proof.Gen.Kernel.Launch
import proofs.«121468_j52063593562939_2_alg».proof.Proof.Gen.Kernel.Points
import proofs.«121468_j52063593562939_2_alg».proof.Proof.Gen.Kernel.Frame
import proofs.«121468_j52063593562939_2_alg».proof.Proof.Gen.KernelIdeal
import proofs.«121468_j52063593562939_2_alg».proof.Proof.Gen.KernelIdeal.Skeleton
import proofs.«121468_j52063593562939_2_alg».proof.Proof.Gen.KernelIdeal.Launch
import proofs.«121468_j52063593562939_2_alg».proof.Proof.Gen.KernelIdeal.Points
import proofs.«121468_j52063593562939_2_alg».proof.Proof.Gen.KernelIdeal.Frame
import proofs.«121468_j52063593562939_2_alg».proof.Proof.Gen.ReferenceIdeal
import proofs.«121468_j52063593562939_2_alg».proof.Proof.Gen.Pre_finite_inputs
import proofs.«121468_j52063593562939_2_alg».proof.Proof.Gen.ReferenceIdeal.Read
import proofs.«121468_j52063593562939_2_alg».proof.Proof.KernelRun
import proofs.«121468_j52063593562939_2_alg».proof.Proof.RefRow
import proofs.«121468_j52063593562939_2_alg».proof.Proof.FiniteInputs
import proofs.«121468_j52063593562939_2_alg».proof.Proof.Bridge
import Idealize.ShloMosaic.Adequacy
import Idealize.ShloMosaic.Init

noncomputable section

namespace Cert.Proof

open Idealize.ShloMosaic Idealize.SL.Sem Idealize.ShloMosaic.ValueIdx

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, both idealized programs end with the result buffer at
    `Result.result` of the arguments: the kernel by its run read back, the reference because on a real row its two
    separate softmaxes are the kernel's fused pair. -/
theorem algebraic : Cert.algebraic_KernelIdeal_ReferenceIdeal := by
  intro m ρ m' ρ' hpre hagree
  refine ⟨_, Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2]
  obtain ⟨h0, h1, h2⟩ := Cert.FiniteInputs.real_of_pre _ _ _ (hpre c)
  funext i
  obtain ⟨b, h, s, d, rfl⟩ : ∃ (b : Fin 4) (h : Fin 16) (s : Fin 4096) (d : Fin 128), i = ix4 b h s d :=
    ⟨i 0, i 1, i 2, i 3, eq_ix4 i⟩
  rw [Cert.RefRow.val_main_v29_at]
  exact (Cert.Bridge.result_eq_twoPass _ _ _ h0 h1 h2 b h s d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
